-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x150 : Shape := ⟨2, ![128, 150]⟩
abbrev S150 : Shape := ⟨1, ![150]⟩
abbrev S150x128 : Shape := ⟨2, ![150, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x150 : S_.BroadcastsInDim S128x150 (![] : Fin 0 → Fin S128x150.rank)
  reducesTo_S128x150_S_d0_1 : S128x150.ReducesTo [0, 1] S_
  bcast_S_S150 : S_.BroadcastsInDim S150 (![] : Fin 0 → Fin S150.rank)
  reducesTo_S150_S_d0 : S150.ReducesTo [0] S_
  bcast_S_S150x128 : S_.BroadcastsInDim S150x128 (![] : Fin 0 → Fin S150x128.rank)
  reducesTo_S150x128_S_d0_1 : S150x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S150x128 .f32) (main_arg7 : FVec F S150x128 .f32) (main_arg8 : FVec F S128 .f32) (main_v13 : IVec S_ 1) (main_v16 : IVec S150 1) : IVec S_ 1 :=
  let main_c_5 : IVec S_ 1 := constantI S_ 1 1#1
  let main_v17 : IVec S_ 1 := (fun x v => Host.reduce IntOp.andi x v reducesTo_S150_S_d0 h_S_) main_v16 main_c_5
  let main_v18 : IVec S_ 1 := andi main_v13 main_v17
  let main_v19 : FVec F S150x128 .f32 := Host.absf main_arg6
  let main_cst_6 : FVec F S_ .f32 := constant S_ .f32 0x7F800000#32
  let main_v20 : FVec F S150x128 .f32 := broadcastInDim S150x128 ![] bcast_S_S150x128 main_cst_6
  let main_v21 : IVec S150x128 1 := cmpf .olt main_v19 main_v20
  let main_c_7 : IVec S_ 1 := constantI S_ 1 1#1
  let main_v22 : IVec S_ 1 := (fun x v => Host.reduce IntOp.andi x v reducesTo_S150x128_S_d0_1 h_S_) main_v21 main_c_7
  let main_v23 : IVec S_ 1 := andi main_v18 main_v22
  let main_v24 : FVec F S150x128 .f32 := Host.absf main_arg7
  let main_cst_8 : FVec F S_ .f32 := constant S_ .f32 0x7F800000#32
  let main_v25 : FVec F S150x128 .f32 := broadcastInDim S150x128 ![] bcast_S_S150x128 main_cst_8
  let main_v26 : IVec S150x128 1 := cmpf .olt main_v24 main_v25
  let main_c_9 : IVec S_ 1 := constantI S_ 1 1#1
  let main_v27 : IVec S_ 1 := (fun x v => Host.reduce IntOp.andi x v reducesTo_S150x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x150 .f32) (main_arg4 : FVec F S128x150 .f32) (main_arg5 : FVec F S150 .f32) (main_arg6 : FVec F S150x128 .f32) (main_arg7 : FVec F S150x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x150 .f32 := Host.absf main_arg3
  let main_cst_0 : FVec F S_ .f32 := constant S_ .f32 0x7F800000#32
  let main_v5 : FVec F S128x150 .f32 := broadcastInDim S128x150 ![] bcast_S_S128x150 main_cst_0
  let main_v6 : IVec S128x150 1 := cmpf .olt main_v4 main_v5
  let main_c_1 : IVec S_ 1 := constantI S_ 1 1#1
  let main_v7 : IVec S_ 1 := (fun x v => Host.reduce IntOp.andi x v reducesTo_S128x150_S_d0_1 h_S_) main_v6 main_c_1
  let main_v8 : IVec S_ 1 := andi main_v3 main_v7
  let main_v9 : FVec F S128x150 .f32 := Host.absf main_arg4
  let main_cst_2 : FVec F S_ .f32 := constant S_ .f32 0x7F800000#32
  let main_v10 : FVec F S128x150 .f32 := broadcastInDim S128x150 ![] bcast_S_S128x150 main_cst_2
  let main_v11 : IVec S128x150 1 := cmpf .olt main_v9 main_v10
  let main_c_3 : IVec S_ 1 := constantI S_ 1 1#1
  let main_v12 : IVec S_ 1 := (fun x v => Host.reduce IntOp.andi x v reducesTo_S128x150_S_d0_1 h_S_) main_v11 main_c_3
  let main_v13 : IVec S_ 1 := andi main_v8 main_v12
  let main_v14 : FVec F S150 .f32 := Host.absf main_arg5
  let main_cst_4 : FVec F S_ .f32 := constant S_ .f32 0x7F800000#32
  let main_v15 : FVec F S150 .f32 := broadcastInDim S150 ![] bcast_S_S150 main_cst_4
  let main_v16 : IVec S150 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x150 : Shape := ⟨2, ![128, 150]⟩
abbrev S150 : Shape := ⟨1, ![150]⟩
abbrev S150x128 : Shape := ⟨2, ![150, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x150 : Shape := ⟨2, ![1, 150]⟩
abbrev S100000x150 : Shape := ⟨2, ![100000, 150]⟩
abbrev S2000x128 : Shape := ⟨2, ![2000, 128]⟩
abbrev S2000x150 : Shape := ⟨2, ![2000, 150]⟩
abbrev S1600000x150 : Shape := ⟨2, ![1600000, 150]⟩
abbrev S1x128 : Shape := ⟨2, ![1, 128]⟩

abbrev nBuf : Space → Nat
  | .hbm => 64
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x150, .f32⟩
  | .hbm, ⟨4, _⟩ => ⟨S128x150, .f32⟩
  | .hbm, ⟨5, _⟩ => ⟨S150, .f32⟩
  | .hbm, ⟨6, _⟩ => ⟨S150x128, .f32⟩
  | .hbm, ⟨7, _⟩ => ⟨S150x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S1x150, .f32⟩
  | .hbm, ⟨45, _⟩ => ⟨S100000x150, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x150, .f32⟩
  | .hbm, ⟨55, _⟩ => ⟨S_, .f32⟩
  | .hbm, ⟨56, _⟩ => ⟨S100000x150, .f32⟩
  | .hbm, ⟨57, _⟩ => ⟨S1600000x1, .i32⟩
  | .hbm, ⟨58, _⟩ => ⟨S100000x150, .f32⟩
  | .hbm, ⟨59, _⟩ => ⟨S100000x1, .f32⟩
  | .hbm, ⟨60, _⟩ => ⟨S100000x150, .f32⟩
  | .hbm, ⟨61, _⟩ => ⟨S100000x150, .f32⟩
  | .hbm, ⟨62, _⟩ => ⟨S1x128, .f32⟩
  | .hbm, ⟨63, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x150, .f32⟩
  | .local _ .vmem, ⟨5, _⟩ => ⟨S128x150, .f32⟩
  | .local _ .vmem, ⟨6, _⟩ => ⟨S1x150, .f32⟩
  | .local _ .vmem, ⟨7, _⟩ => ⟨S2000x150, .f32⟩
  | .local _ .vmem, ⟨8, _⟩ => ⟨S2000x150, .f32⟩
  | .local _ .vmem, ⟨9, _⟩ => ⟨S2000x150, .f32⟩
  | .local _ .vmem, ⟨10, _⟩ => ⟨S2000x150, .f32⟩
  | .local _ .vmem, ⟨11, _⟩ => ⟨S2000x150, .f32⟩
  | .local _ .vmem, ⟨12, _⟩ => ⟨S2000x150, .f32⟩
  | .local _ .vmem, ⟨13, _⟩ => ⟨S150x128, .f32⟩
  | .local _ .vmem, ⟨14, _⟩ => ⟨S150x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_c_8 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x150 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x150 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x150 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x150 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x150 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x150 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S150x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S150x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S150_S1x150 : S150.ShapeCasts S1x150
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x150_S128x150_0_0 : ∀ a, (![0, 0] : Fin 2 → Nat) a + S128x150.size a ≤ S128x150.size a
  h_S128x150 : 0 < S128x150.numel
  inb_S1x150_S1x150_0_0 : ∀ a, (![0, 0] : Fin 2 → Nat) a + S1x150.size a ≤ S1x150.size a
  h_S1x150 : 0 < S1x150.numel
  shapeCasts_S1x150_S1x150 : S1x150.ShapeCasts S1x150
  broadcasts_S1x150_S2000x150 : S1x150.Broadcasts S2000x150
  inb_S2000x150_S2000x150_0_0 : ∀ a, (![0, 0] : Fin 2 → Nat) a + S2000x150.size a ≤ S2000x150.size a
  h_S2000x150 : 0 < S2000x150.numel
  bcast_S_S100000x150 : S_.BroadcastsInDim S100000x150 (![] : Fin 0 → Fin S100000x150.rank)
  bcast_S100000x1_S100000x150_0_1 : S100000x1.BroadcastsInDim S100000x150 (![0, 1] : Fin 2 → Fin S100000x150.rank)
  shapeCasts_S128_S1x128 : S128.ShapeCasts S1x128
  shapeCasts_S2000x150_S2000x150 : S2000x150.ShapeCasts S2000x150
  inb_S150x128_S150x128_0_0 : ∀ a, (![0, 0] : Fin 2 → Nat) a + S150x128.size a ≤ S150x128.size a
  h_S150x128 : 0 < S150x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x150_S2000x150_1_0_0_1_n_n_wf : DotDims.WF S2000x128 S128x150 S2000x150 [1] [0] [0] [1] [] []
  gather_S100000x150_S1600000x1_S1600000x150_1_0_n_n_0_1_1150_wf : GatherDims.WF S100000x150 S1600000x1 S1600000x150 [1] [0] [] [0] [] 1 ![1, 150]
  scatter_S100000x150_S1600000x1_S1600000x150_1_0_0_1_wf : ScatterDims.WF S100000x150 S1600000x1 S1600000x150 [1] [0] [0] 1
  dot_S2000x150_S150x128_S2000x128_1_0_0_1_n_n_wf : DotDims.WF S2000x150 S150x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x150.size a ≤ S128x150.size a
  hwx0_2 : ∀ i : grid0.Coords, EltTy.bits .f32 = 32 ∨ (Rect.block (s := S128x150) S128x150.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x150.size a ≤ S128x150.size a
  hwx0_3 : ∀ i : grid0.Coords, EltTy.bits .f32 = 32 ∨ (Rect.block (s := S128x150) S128x150.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x150.size a ≤ S1x150.size a
  hwx0_4 : ∀ i : grid0.Coords, EltTy.bits .f32 = 32 ∨ (Rect.block (s := S1x150) S1x150.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x150.size a ≤ S100000x150.size a
  hwx0_5 : ∀ i : grid0.Coords, EltTy.bits .f32 = 32 ∨ (Rect.block (s := S100000x150) S2000x150.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x150.size a ≤ S100000x150.size a
  hwx1_0 : ∀ i : grid1.Coords, EltTy.bits .f32 = 32 ∨ (Rect.block (s := S100000x150) S2000x150.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x150.size a ≤ S100000x150.size a
  hwx1_1 : ∀ i : grid1.Coords, EltTy.bits .f32 = 32 ∨ (Rect.block (s := S100000x150) S2000x150.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S150x128.size a ≤ S150x128.size a
  hwx1_2 : ∀ i : grid1.Coords, EltTy.bits .f32 = 32 ∨ (Rect.block (s := S150x128) S150x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S150x128.size a ≤ S150x128.size a
  hwx1_3 : ∀ i : grid1.Coords, EltTy.bits .f32 = 32 ∨ (Rect.block (s := S150x128) S150x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x150_S2000x150_1_0_0_1_n_n : DotDims S2000x128 S128x150 S2000x150 where
  lhsContracting := [1]
  rhsContracting := [0]
  lhsNonContracting := [0]
  rhsNonContracting := [1]
  lhsBatch := []
  rhsBatch := []
  wf := dot_S2000x128_S128x150_S2000x150_1_0_0_1_n_n_wf
def gather_S100000x150_S1600000x1_S1600000x150_1_0_n_n_0_1_1150 : GatherDims S100000x150 S1600000x1 S1600000x150 where
  offsetDims := [1]
  collapsedSliceDims := [0]
  operandBatchingDims := []
  startIndicesBatchingDims := []
  startIndexMap := [0]
  indexVectorDim := 1
  sliceSizes := ![1, 150]
  wf := gather_S100000x150_S1600000x1_S1600000x150_1_0_n_n_0_1_1150_wf
def scatter_S100000x150_S1600000x1_S1600000x150_1_0_0_1 : ScatterDims S100000x150 S1600000x1 S1600000x150 where
  updateWindowDims := [1]
  insertedWindowDims := [0]
  scatterDimsToOperandDims := [0]
  indexVectorDim := 1
  wf := scatter_S100000x150_S1600000x1_S1600000x150_1_0_0_1_wf
def dot_S2000x150_S150x128_S2000x128_1_0_0_1_n_n : DotDims S2000x150 S150x128 S2000x128 where
  lhsContracting := [1]
  rhsContracting := [0]
  lhsNonContracting := [0]
  rhsNonContracting := [1]
  lhsBatch := []
  rhsBatch := []
  wf := dot_S2000x150_S150x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x150.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x150.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x150.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x150.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S2000x150.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S2000x150.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S150x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S150x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x150 : Shape := ⟨2, ![128, 150]⟩
abbrev S150 : Shape := ⟨1, ![150]⟩
abbrev S150x128 : Shape := ⟨2, ![150, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S100000x150 : Shape := ⟨2, ![100000, 150]⟩
abbrev S1x150 : Shape := ⟨2, ![1, 150]⟩
abbrev S1600000x150 : Shape := ⟨2, ![1600000, 150]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x150, .f32⟩
  | .hbm, ⟨4, _⟩ => ⟨S128x150, .f32⟩
  | .hbm, ⟨5, _⟩ => ⟨S150, .f32⟩
  | .hbm, ⟨6, _⟩ => ⟨S150x128, .f32⟩
  | .hbm, ⟨7, _⟩ => ⟨S150x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S100000x150, .f32⟩
  | .hbm, ⟨45, _⟩ => ⟨S100000x150, .f32⟩
  | .hbm, ⟨46, _⟩ => ⟨S100000x150, .f32⟩
  | .hbm, ⟨47, _⟩ => ⟨S1x150, .f32⟩
  | .hbm, ⟨48, _⟩ => ⟨S100000x150, .f32⟩
  | .hbm, ⟨49, _⟩ => ⟨S100000x150, .f32⟩
  | .hbm, ⟨50, _⟩ => ⟨S_, .f32⟩
  | .hbm, ⟨51, _⟩ => ⟨S100000x150, .f32⟩
  | .hbm, ⟨52, _⟩ => ⟨S100000x150, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x150, .f32⟩
  | .hbm, ⟨62, _⟩ => ⟨S_, .f32⟩
  | .hbm, ⟨63, _⟩ => ⟨S100000x150, .f32⟩
  | .hbm, ⟨64, _⟩ => ⟨S1600000x1, .i32⟩
  | .hbm, ⟨65, _⟩ => ⟨S100000x150, .f32⟩
  | .hbm, ⟨66, _⟩ => ⟨S100000x1, .f32⟩
  | .hbm, ⟨67, _⟩ => ⟨S100000x150, .f32⟩
  | .hbm, ⟨68, _⟩ => ⟨S100000x150, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call1_cst : Ref sig .tc := ⟨.hbm, 50, rfl⟩
abbrev main_call1_v0 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S150_S1x150_1 : S150.BroadcastsInDim S1x150 (![1] : Fin 1 → Fin S1x150.rank)
  bcast_S1x150_S100000x150_0_1 : S1x150.BroadcastsInDim S100000x150 (![0, 1] : Fin 2 → Fin S100000x150.rank)
  bcast_S_S100000x150 : S_.BroadcastsInDim S100000x150 (![] : Fin 0 → Fin S100000x150.rank)
  bcast_S100000x1_S100000x150_0_1 : S100000x1.BroadcastsInDim S100000x150 (![0, 1] : Fin 2 → Fin S100000x150.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x150_S100000x150_1_0_0_1_n_n_wf : DotDims.WF S100000x128 S128x150 S100000x150 [1] [0] [0] [1] [] []
  gather_S100000x150_S1600000x1_S1600000x150_1_0_n_n_0_1_1150_wf : GatherDims.WF S100000x150 S1600000x1 S1600000x150 [1] [0] [] [0] [] 1 ![1, 150]
  scatter_S100000x150_S1600000x1_S1600000x150_1_0_0_1_wf : ScatterDims.WF S100000x150 S1600000x1 S1600000x150 [1] [0] [0] 1
  dot_S100000x150_S150x128_S100000x128_1_0_0_1_n_n_wf : DotDims.WF S100000x150 S150x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x150_S100000x150_1_0_0_1_n_n : DotDims S100000x128 S128x150 S100000x150 where
  lhsContracting := [1]
  rhsContracting := [0]
  lhsNonContracting := [0]
  rhsNonContracting := [1]
  lhsBatch := []
  rhsBatch := []
  wf := dot_S100000x128_S128x150_S100000x150_1_0_0_1_n_n_wf
def gather_S100000x150_S1600000x1_S1600000x150_1_0_n_n_0_1_1150 : GatherDims S100000x150 S1600000x1 S1600000x150 where
  offsetDims := [1]
  collapsedSliceDims := [0]
  operandBatchingDims := []
  startIndicesBatchingDims := []
  startIndexMap := [0]
  indexVectorDim := 1
  sliceSizes := ![1, 150]
  wf := gather_S100000x150_S1600000x1_S1600000x150_1_0_n_n_0_1_1150_wf
def scatter_S100000x150_S1600000x1_S1600000x150_1_0_0_1 : ScatterDims S100000x150 S1600000x1 S1600000x150 where
  updateWindowDims := [1]
  insertedWindowDims := [0]
  scatterDimsToOperandDims := [0]
  indexVectorDim := 1
  wf := scatter_S100000x150_S1600000x1_S1600000x150_1_0_0_1_wf
def dot_S100000x150_S150x128_S100000x128_1_0_0_1_n_n : DotDims S100000x150 S150x128 S100000x128 where
  lhsContracting := [1]
  rhsContracting := [0]
  lhsNonContracting := [0]
  rhsNonContracting := [1]
  lhsBatch := []
  rhsBatch := []
  wf := dot_S100000x150_S150x128_S100000x128_1_0_0_1_n_n_wf

class Facts : Prop extends Facts₀ where

variable [Facts]
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.Payload.lean ====
/-
  The two dense layers' block arithmetic, read at an index of the block.

  A block of 2000 node rows enters a layer as two row blocks, `h` (the nodes' own features) and `hn` (the neighbourhood
  means), beside the two weight matrices and the bias row. What the layer stores at row `p`, column `q` is
  `∑ₖ h(p,k)·Wₛ(k,q) + ∑ₖ hn(p,k)·Wₙ(k,q) + b(0,q)`, and the first layer clamps that below at zero. On the extended reals the
  roundings to the half-width format on the way into the matrix unit are the identity, a product into the zero accumulator
  is the plain sum over the contracted axis, and the bias row broadcast down the block reads its one row.
-/
import proofs.«101124_j23630910063248_1_alg».proof.Proof.Gen.KernelIdeal.Skeleton
import proofs.«101124_j23630910063248_1_alg».proof.Proof.LibMatmul
import Idealize.ShloMosaic.Lib.ValueLayout
import Idealize.ShloMosaic.Lib.ValueIdx
import Idealize.ShloMosaic.Lib.Pipeline.Value
import Idealize.ShloMosaic.PureOps.Ideal.Laws

open scoped BigOperators
noncomputable section
namespace Cert.KernelIdeal.Sage
open Idealize.ShloMosaic Idealize.ShloMosaic.ValueIdx Cert.KernelIdeal Cert.KernelIdeal.Gen Cert.MatOps

/-- The first layer's contraction record is the plain `[2000,128] × [128,150]` product. -/
theorem dot0_plain : dot_S2000x128_S128x150_S2000x150_1_0_0_1_n_n = DotDims.plain 2000 128 150 := rfl
/-- The second layer's contraction record is the plain `[2000,150] × [150,128]` product. -/
theorem dot1_plain : dot_S2000x150_S150x128_S2000x128_1_0_0_1_n_n = DotDims.plain 2000 150 128 := rfl

/-- The first layer's stored block at `(p, q)`. -/
theorem pay0_apply (x0 x1 : Vec Ideal S2000x128 .f32) (x2 x3 : Vec Ideal S128x150 .f32) (x4 : Vec Ideal S1x150 .f32)
    (p : Fin 2000) (q : Fin 150) :
    k0_pay1 x0 x1 x2 x3 x4 (ix2 p q)
      = max ((∑ k : Fin 128, x0 (ix2 p k) * x2 (ix2 k q)) + (∑ k : Fin 128, x1 (ix2 p k) * x3 (ix2 k q)) + x4 (ix2 (0 : Fin 1) q))
          (Ideal.ofBits .f32 0x00000000#32) := by
  unfold k0_pay1
  simp only [dot0_plain]
  rw [maximumf_apply, addf_apply, addf_apply, matmul_plain_zero_apply, matmul_plain_zero_apply, broadcastTo_1b_ab_apply]
  simp only [truncf_apply, shapeCast_self, broadcast_apply]
  rfl

/-- The second layer's stored block at `(p, q)`. -/
theorem pay1_apply (x0 x1 : Vec Ideal S2000x150 .f32) (x2 x3 : Vec Ideal S150x128 .f32) (x4 : Vec Ideal S1x128 .f32)
    (p : Fin 2000) (q : Fin 128) :
    k1_pay1 x0 x1 x2 x3 x4 (ix2 p q)
      = (∑ k : Fin 150, x0 (ix2 p k) * x2 (ix2 k q)) + (∑ k : Fin 150, x1 (ix2 p k) * x3 (ix2 k q)) + x4 (ix2 (0 : Fin 1) q) := by
  unfold k1_pay1
  simp only [dot1_plain]
  rw [addf_apply, addf_apply, matmul_plain_zero_apply, matmul_plain_zero_apply, broadcastTo_1b_ab_apply]
  simp only [truncf_apply, shapeCast_self]

end Cert.KernelIdeal.Sage
end
-- ==== Proof.Spec.lean ====
/-
  One entry of a dense graph layer, and the two layers as whole-array functions.

  Node `p`'s new feature `q` is its own features against one weight matrix, plus its neighbourhood mean against another,
  plus a bias: `∑ₖ h(p,k)·Wₛ(k,q) + ∑ₖ hn(p,k)·Wₙ(k,q) + b(q)`. The first layer clamps the entry below at zero, the second
  does not. Everything is over the extended reals, with both sums written out over the contracted axis.
-/
import Idealize.ShloMosaic.PureOps.Ideal
import Idealize.ShloMosaic.Lib.ValueIdx

open scoped BigOperators
noncomputable section
namespace Cert.Sage
open Idealize.ShloMosaic Idealize.ShloMosaic.ValueIdx

/-- Entry `(p, q)` of a dense layer over 100000 nodes, `K` features in and `M` out. -/
def dense {K M : Nat} (h hn : (⟨2, ![100000, K]⟩ : Shape).Idx → EReal) (ws wn : (⟨2, ![K, M]⟩ : Shape).Idx → EReal)
    (b : Fin M → EReal) (p : Fin 100000) (q : Fin M) : EReal :=
  (∑ k : Fin K, h (ix2 p k) * ws (ix2 k q)) + (∑ k : Fin K, hn (ix2 p k) * wn (ix2 k q)) + b q

/-- The first layer: 128 features to 150, clamped below at zero. -/
def layer1 (h hn : (⟨2, ![100000, 128]⟩ : Shape).Idx → EReal) (ws wn : (⟨2, ![128, 150]⟩ : Shape).Idx → EReal)
    (b : Fin 150 → EReal) : (⟨2, ![100000, 150]⟩ : Shape).Idx → EReal :=
  fun i => max (dense h hn ws wn b (i 0) (i 1)) (Ideal.ofBits .f32 0x00000000#32)

/-- The second layer: 150 features to 128. -/
def layer2 (h hn : (⟨2, ![100000, 150]⟩ : Shape).Idx → EReal) (ws wn : (⟨2, ![150, 128]⟩ : Shape).Idx → EReal)
    (b : Fin 128 → EReal) : (⟨2, ![100000, 128]⟩ : Shape).Idx → EReal :=
  fun i => dense h hn ws wn b (i 0) (i 1)

end Cert.Sage
end
-- ==== Proof.Region0.lean ====
/-
  Region 0 (the first dense layer), from blocks to the whole array.

  The grid has 50 points; point `t` works on node rows `2000·t … 2000·t + 1999`: it reads those rows of the two feature
  arrays, all of both weight matrices and the bias row, and writes those rows of the output. So what point `t` writes back
  is rows `2000·t …` of ONE function of the arrays as the region finds them — the layer, entry by entry — and since the
  50 row blocks tile the 100000 rows, the output array ends holding that function. The region's entry contents `V` stay a
  variable throughout: nothing here depends on how the host operations before the region filled the arrays.
-/
import proofs.«101124_j23630910063248_1_alg».proof.Proof.Gen.KernelIdeal.Frame
import proofs.«101124_j23630910063248_1_alg».proof.Proof.Payload
import proofs.«101124_j23630910063248_1_alg».proof.Proof.Spec
import Idealize.ShloMosaic.Lib.Pipeline.Value
import Idealize.ShloMosaic.Lib.Tactic

set_option maxRecDepth 16384
open scoped BigOperators

noncomputable section

namespace Cert.KernelIdeal.Sage

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The windows' block indices at point `t`: the two feature windows and the output move down the rows with `t`, the weight and
    bias windows stay at block zero. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One stored entry is the layer's entry, given where the loaded blocks sit in their arrays: the two feature blocks are the
    rows from `r` on, the weight and bias blocks are the whole arrays. -/
theorem cell0_eq (A B : S100000x128.Idx → EReal) (W1 W2 : S128x150.Idx → EReal) (Bv : S1x150.Idx → EReal)
    (x0 x1 : Vec Ideal S2000x128 .f32) (x2 x3 : Vec Ideal S128x150 .f32) (x4 : Vec Ideal S1x150 .f32)
    (r : Nat) (y : S2000x150.Idx) (i : S100000x150.Idx)
    (hi0 : (i 0).val = r + (y 0).val) (hi1 : (i 1).val = (y 1).val)
    (h0 : ∀ (u : S2000x128.Idx) (v : S100000x128.Idx), (v 0).val = r + (u 0).val → (v 1).val = (u 1).val → x0 u = A v)
    (h1 : ∀ (u : S2000x128.Idx) (v : S100000x128.Idx), (v 0).val = r + (u 0).val → (v 1).val = (u 1).val → x1 u = B v)
    (h2 : x2 = W1) (h3 : x3 = W2) (h4 : x4 = Bv) :
    k0_pay1 x0 x1 x2 x3 x4 y = Cert.Sage.layer1 A B W1 W2 (fun q => Bv (ix2 (0 : Fin 1) q)) i := by
  obtain ⟨p, q, rfl⟩ : ∃ (p : Fin 2000) (q : Fin 150), y = ix2 p q := ⟨y 0, y 1, eq_ix2 y⟩
  obtain ⟨a, b, rfl⟩ : ∃ (a : Fin 100000) (b : Fin 150), i = ix2 a b := ⟨i 0, i 1, eq_ix2 i⟩
  obtain rfl : b = q := Fin.ext hi1
  subst h2 h3 h4
  have hr0 : ∀ k : Fin 128, x0 (ix2 p k) = A (ix2 a k) := fun k => h0 (ix2 p k) (ix2 a k) hi0 rfl
  have hr1 : ∀ k : Fin 128, x1 (ix2 p k) = B (ix2 a k) := fun k => h1 (ix2 p k) (ix2 a k) hi0 rfl
  rw [pay0_apply]
  show _ = max (Cert.Sage.dense A B x2 x3 (fun q => x4 (ix2 (0 : Fin 1) q)) a b) _
  unfold Cert.Sage.dense
  simp only [hr0, hr1]

/-- Feature window `w` (0: the nodes' own features, 1: the neighbourhood means): its block at point `t` is rows `2000·t …` of
    its array. -/
theorem iblk0_0_rows (c : Dev nD) (t : Fin cfg0.N) (u : S2000x128.Idx) (v : S100000x128.Idx)
    (hv0 : (v 0).val = t.val * 2000 + (u 0).val) (hv1 : (v 1).val = (u 1).val) :
    (iblk0 V c 0 t : Vec Ideal S2000x128 .f32) u = (V c main_arg0 : S100000x128.Idx → EReal) v := by
  obtain ⟨e00, e01, -⟩ := idx_facts0 t
  unfold iblk0
  rw [View.read_apply]
  show V c main_arg0 _ = V c main_arg0 _
  refine congrArg (V c main_arg0) ?_
  funext a
  apply Fin.ext
  match a with
  | ⟨0, _⟩ => show win0_0.index t (0 : Fin 2) * 2000 + 1 * (u 0).val = (v 0).val; rw [e00, hv0]; omega
  | ⟨1, _⟩ => show win0_0.index t (1 : Fin 2) * 128 + 1 * (u 1).val = (v 1).val; rw [e01, hv1]; omega

theorem iblk0_1_rows (c : Dev nD) (t : Fin cfg0.N) (u : S2000x128.Idx) (v : S100000x128.Idx)
    (hv0 : (v 0).val = t.val * 2000 + (u 0).val) (hv1 : (v 1).val = (u 1).val) :
    (iblk0 V c 1 t : Vec Ideal S2000x128 .f32) u = (V c main_v23 : S100000x128.Idx → EReal) v := by
  obtain ⟨-, -, e10, e11, -⟩ := idx_facts0 t
  unfold iblk0
  rw [View.read_apply]
  show V c main_v23 _ = V c main_v23 _
  refine congrArg (V c main_v23) ?_
  funext a
  apply Fin.ext
  match a with
  | ⟨0, _⟩ => show win0_1.index t (0 : Fin 2) * 2000 + 1 * (u 0).val = (v 0).val; rw [e10, hv0]; omega
  | ⟨1, _⟩ => show win0_1.index t (1 : Fin 2) * 128 + 1 * (u 1).val = (v 1).val; rw [e11, hv1]; omega

/-- The weight windows' and the bias window's one block is the whole array, at every point. -/
theorem iblk0_2_whole (c : Dev nD) (t : Fin cfg0.N) :
    (iblk0 V c 2 t : Vec Ideal S128x150 .f32) = (V c main_arg3 : S128x150.Idx → EReal) := by
  obtain ⟨-, -, -, -, e20, e21, -⟩ := idx_facts0 t
  funext u
  unfold iblk0
  rw [View.read_apply]
  show V c main_arg3 _ = V c main_arg3 _
  refine congrArg (V c main_arg3) ?_
  funext a
  apply Fin.ext
  match a with
  | ⟨0, _⟩ => show win0_2.index t (0 : Fin 2) * 128 + 1 * (u 0).val = (u 0).val; rw [e20]; omega
  | ⟨1, _⟩ => show win0_2.index t (1 : Fin 2) * 150 + 1 * (u 1).val = (u 1).val; rw [e21]; omega

theorem iblk0_3_whole (c : Dev nD) (t : Fin cfg0.N) :
    (iblk0 V c 3 t : Vec Ideal S128x150 .f32) = (V c main_arg4 : S128x150.Idx → EReal) := by
  obtain ⟨-, -, -, -, -, -, e30, e31, -⟩ := idx_facts0 t
  funext u
  unfold iblk0
  rw [View.read_apply]
  show V c main_arg4 _ = V c main_arg4 _
  refine congrArg (V c main_arg4) ?_
  funext a
  apply Fin.ext
  match a with
  | ⟨0, _⟩ => show win0_3.index t (0 : Fin 2) * 128 + 1 * (u 0).val = (u 0).val; rw [e30]; omega
  | ⟨1, _⟩ => show win0_3.index t (1 : Fin 2) * 150 + 1 * (u 1).val = (u 1).val; rw [e31]; omega

theorem iblk0_4_whole (c : Dev nD) (t : Fin cfg0.N) :
    (iblk0 V c 4 t : Vec Ideal S1x150 .f32) = (V c main_v24 : S1x150.Idx → EReal) := by
  obtain ⟨-, -, -, -, -, -, -, -, e40, e41, -⟩ := idx_facts0 t
  funext u
  unfold iblk0
  rw [View.read_apply]
  show V c main_v24 _ = V c main_v24 _
  refine congrArg (V c main_v24) ?_
  funext a
  apply Fin.ext
  match a with
  | ⟨0, _⟩ => show win0_4.index t (0 : Fin 2) * 1 + 1 * (u 0).val = (u 0).val; rw [e40]; omega
  | ⟨1, _⟩ => show win0_4.index t (1 : Fin 2) * 150 + 1 * (u 1).val = (u 1).val; rw [e41]; omega

/-- The layer of the arrays as the region finds them. -/
abbrev G0 (c : Dev nD) : S100000x150.Idx → EReal :=
  Cert.Sage.layer1 (V c main_arg0) (V c main_v23) (V c main_arg3) (V c main_arg4) (fun q => (V c main_v24 : S1x150.Idx → EReal) (ix2 (0 : Fin 1) q))

/-- What point `t` writes back is block `t` of the layer. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz0]
  simp only [View.ld_unit_zero (S := S2000x128) hz0, View.ld_unit_zero (S := S128x150) hz0, View.ld_unit_zero (S := S1x150) hz0]
  obtain ⟨-, -, -, -, -, -, -, -, -, -, e50, e51⟩ := idx_facts0 t
  funext j
  rw [View.read_apply]
  refine cell0_eq (V c main_arg0) (V c main_v23) (V c main_arg3) (V c main_arg4) (V c main_v24)
    (iblk0 V c 0 t) (iblk0 V c 1 t) (iblk0 V c 2 t) (iblk0 V c 3 t) (iblk0 V c 4 t) (t.val * 2000) j
    (((cfg0.win 5).blk t).view.emb j) ?_ ?_ (iblk0_0_rows V c t) (iblk0_1_rows V c t) (iblk0_2_whole V c t) (iblk0_3_whole V c t) (iblk0_4_whole V c t)
  · show win0_5.index t (0 : Fin 2) * 2000 + 1 * (j 0).val = t.val * 2000 + (j 0).val; rw [e50]; omega
  · show win0_5.index t (1 : Fin 2) * 150 + 1 * (j 1).val = (j 1).val; rw [e51]; omega

/-- An index of the output array is in point `t`'s block iff each coordinate is in the block's range on its axis. -/
theorem mem_blk0 (t : Fin cfg0.N) (i : S100000x150.Idx) :
    i ∈ ((cfg0.win 5).blk t).view.set ↔ ∀ a : Fin 2, win0_5.index t a * S2000x150.size a ≤ (i a).val ∧ (i a).val < win0_5.index t a * S2000x150.size a + S2000x150.size a := by
  show i ∈ ((View.whole main_v25).slice (win0_5.rect t)).set ↔ _
  rw [View.set_slice_whole, Rect.mem_set_unit]
  exact Iff.rfl

/-- Row `r` is in the block of point `r / 2000`: the 50 row blocks tile the array. -/
theorem cover0 (i : S100000x150.Idx) : ∃ t : Fin cfg0.N, (cfg0.win 5).flush t = true ∧ i ∈ ((cfg0.win 5).blk t).view.set := by
  have hi0 : (i 0).val < 100000 := (i 0).isLt
  have hi1 : (i 1).val < 150 := (i 1).isLt
  have hN : cfg0.N = 50 := N_0
  have ht : (i 0).val / 2000 < cfg0.N := by rw [hN]; omega
  obtain ⟨-, -, -, -, -, -, -, -, -, -, e50, e51⟩ := idx_facts0 ⟨(i 0).val / 2000, ht⟩
  refine ⟨⟨(i 0).val / 2000, ht⟩, flush0_5 _, ?_⟩
  rw [mem_blk0]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, ht⟩ (1 : Fin 2) * 150 ≤ (i 1).val ∧ (i 1).val < win0_5.index ⟨(i 0).val / 2000, ht⟩ (1 : Fin 2) * 150 + 150
    rw [e51]; omega

/-- The region's output array ends holding the layer of the arrays as the region finds them. -/
theorem final0 (c : Dev nD) : (dat0 V c).arrAt 5 cfg0.N = G0 V c :=
  (dat0 V c).arrAt_eq_of_cover 5 (G0 V c) (fun t _ => flushed0_eq V c t) (cover0)

end Cert.KernelIdeal.Sage

end
-- ==== Proof.Region1.lean ====
/-
  Region 1 (the second dense layer), from blocks to the whole array.

  The grid has 50 points; point `t` works on node rows `2000·t … 2000·t + 1999`: it reads those rows of the two feature
  arrays, all of both weight matrices and the bias row, and writes those rows of the output. So what point `t` writes back
  is rows `2000·t …` of ONE function of the arrays as the region finds them — the layer, entry by entry — and since the
  50 row blocks tile the 100000 rows, the output array ends holding that function. The region's entry contents `V` stay a
  variable throughout: nothing here depends on how the host operations before the region filled the arrays.
-/
import proofs.«101124_j23630910063248_1_alg».proof.Proof.Gen.KernelIdeal.Frame
import proofs.«101124_j23630910063248_1_alg».proof.Proof.Payload
import proofs.«101124_j23630910063248_1_alg».proof.Proof.Spec
import Idealize.ShloMosaic.Lib.Pipeline.Value
import Idealize.ShloMosaic.Lib.Tactic

set_option maxRecDepth 16384
open scoped BigOperators

noncomputable section

namespace Cert.KernelIdeal.Sage

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The windows' block indices at point `t`: the two feature windows and the output move down the rows with `t`, the weight and
    bias windows stay at block zero. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One stored entry is the layer's entry, given where the loaded blocks sit in their arrays: the two feature blocks are the
    rows from `r` on, the weight and bias blocks are the whole arrays. -/
theorem cell1_eq (A B : S100000x150.Idx → EReal) (W1 W2 : S150x128.Idx → EReal) (Bv : S1x128.Idx → EReal)
    (x0 x1 : Vec Ideal S2000x150 .f32) (x2 x3 : Vec Ideal S150x128 .f32) (x4 : Vec Ideal S1x128 .f32)
    (r : Nat) (y : S2000x128.Idx) (i : S100000x128.Idx)
    (hi0 : (i 0).val = r + (y 0).val) (hi1 : (i 1).val = (y 1).val)
    (h0 : ∀ (u : S2000x150.Idx) (v : S100000x150.Idx), (v 0).val = r + (u 0).val → (v 1).val = (u 1).val → x0 u = A v)
    (h1 : ∀ (u : S2000x150.Idx) (v : S100000x150.Idx), (v 0).val = r + (u 0).val → (v 1).val = (u 1).val → x1 u = B v)
    (h2 : x2 = W1) (h3 : x3 = W2) (h4 : x4 = Bv) :
    k1_pay1 x0 x1 x2 x3 x4 y = Cert.Sage.layer2 A B W1 W2 (fun q => Bv (ix2 (0 : Fin 1) q)) i := by
  obtain ⟨p, q, rfl⟩ : ∃ (p : Fin 2000) (q : Fin 128), y = ix2 p q := ⟨y 0, y 1, eq_ix2 y⟩
  obtain ⟨a, b, rfl⟩ : ∃ (a : Fin 100000) (b : Fin 128), i = ix2 a b := ⟨i 0, i 1, eq_ix2 i⟩
  obtain rfl : b = q := Fin.ext hi1
  subst h2 h3 h4
  have hr0 : ∀ k : Fin 150, x0 (ix2 p k) = A (ix2 a k) := fun k => h0 (ix2 p k) (ix2 a k) hi0 rfl
  have hr1 : ∀ k : Fin 150, x1 (ix2 p k) = B (ix2 a k) := fun k => h1 (ix2 p k) (ix2 a k) hi0 rfl
  rw [pay1_apply]
  show _ = Cert.Sage.dense A B x2 x3 (fun q => x4 (ix2 (0 : Fin 1) q)) a b
  unfold Cert.Sage.dense
  simp only [hr0, hr1]

/-- Feature window `w` (0: the nodes' own features, 1: the neighbourhood means): its block at point `t` is rows `2000·t …` of
    its array. -/
theorem iblk1_0_rows (c : Dev nD) (t : Fin cfg1.N) (u : S2000x150.Idx) (v : S100000x150.Idx)
    (hv0 : (v 0).val = t.val * 2000 + (u 0).val) (hv1 : (v 1).val = (u 1).val) :
    (iblk1 V c 0 t : Vec Ideal S2000x150 .f32) u = (V c main_v25 : S100000x150.Idx → EReal) v := by
  obtain ⟨e00, e01, -⟩ := idx_facts1 t
  unfold iblk1
  rw [View.read_apply]
  show V c main_v25 _ = V c main_v25 _
  refine congrArg (V c main_v25) ?_
  funext a
  apply Fin.ext
  match a with
  | ⟨0, _⟩ => show win1_0.index t (0 : Fin 2) * 2000 + 1 * (u 0).val = (v 0).val; rw [e00, hv0]; omega
  | ⟨1, _⟩ => show win1_0.index t (1 : Fin 2) * 150 + 1 * (u 1).val = (v 1).val; rw [e01, hv1]; omega

theorem iblk1_1_rows (c : Dev nD) (t : Fin cfg1.N) (u : S2000x150.Idx) (v : S100000x150.Idx)
    (hv0 : (v 0).val = t.val * 2000 + (u 0).val) (hv1 : (v 1).val = (u 1).val) :
    (iblk1 V c 1 t : Vec Ideal S2000x150 .f32) u = (V c main_v38 : S100000x150.Idx → EReal) v := by
  obtain ⟨-, -, e10, e11, -⟩ := idx_facts1 t
  unfold iblk1
  rw [View.read_apply]
  show V c main_v38 _ = V c main_v38 _
  refine congrArg (V c main_v38) ?_
  funext a
  apply Fin.ext
  match a with
  | ⟨0, _⟩ => show win1_1.index t (0 : Fin 2) * 2000 + 1 * (u 0).val = (v 0).val; rw [e10, hv0]; omega
  | ⟨1, _⟩ => show win1_1.index t (1 : Fin 2) * 150 + 1 * (u 1).val = (v 1).val; rw [e11, hv1]; omega

/-- The weight windows' and the bias window's one block is the whole array, at every point. -/
theorem iblk1_2_whole (c : Dev nD) (t : Fin cfg1.N) :
    (iblk1 V c 2 t : Vec Ideal S150x128 .f32) = (V c main_arg6 : S150x128.Idx → EReal) := by
  obtain ⟨-, -, -, -, e20, e21, -⟩ := idx_facts1 t
  funext u
  unfold iblk1
  rw [View.read_apply]
  show V c main_arg6 _ = V c main_arg6 _
  refine congrArg (V c main_arg6) ?_
  funext a
  apply Fin.ext
  match a with
  | ⟨0, _⟩ => show win1_2.index t (0 : Fin 2) * 150 + 1 * (u 0).val = (u 0).val; rw [e20]; omega
  | ⟨1, _⟩ => show win1_2.index t (1 : Fin 2) * 128 + 1 * (u 1).val = (u 1).val; rw [e21]; omega

theorem iblk1_3_whole (c : Dev nD) (t : Fin cfg1.N) :
    (iblk1 V c 3 t : Vec Ideal S150x128 .f32) = (V c main_arg7 : S150x128.Idx → EReal) := by
  obtain ⟨-, -, -, -, -, -, e30, e31, -⟩ := idx_facts1 t
  funext u
  unfold iblk1
  rw [View.read_apply]
  show V c main_arg7 _ = V c main_arg7 _
  refine congrArg (V c main_arg7) ?_
  funext a
  apply Fin.ext
  match a with
  | ⟨0, _⟩ => show win1_3.index t (0 : Fin 2) * 150 + 1 * (u 0).val = (u 0).val; rw [e30]; omega
  | ⟨1, _⟩ => show win1_3.index t (1 : Fin 2) * 128 + 1 * (u 1).val = (u 1).val; rw [e31]; omega

theorem iblk1_4_whole (c : Dev nD) (t : Fin cfg1.N) :
    (iblk1 V c 4 t : Vec Ideal S1x128 .f32) = (V c main_v39 : S1x128.Idx → EReal) := by
  obtain ⟨-, -, -, -, -, -, -, -, e40, e41, -⟩ := idx_facts1 t
  funext u
  unfold iblk1
  rw [View.read_apply]
  show V c main_v39 _ = V c main_v39 _
  refine congrArg (V c main_v39) ?_
  funext a
  apply Fin.ext
  match a with
  | ⟨0, _⟩ => show win1_4.index t (0 : Fin 2) * 1 + 1 * (u 0).val = (u 0).val; rw [e40]; omega
  | ⟨1, _⟩ => show win1_4.index t (1 : Fin 2) * 128 + 1 * (u 1).val = (u 1).val; rw [e41]; omega

/-- The layer of the arrays as the region finds them. -/
abbrev G1 (c : Dev nD) : S100000x128.Idx → EReal :=
  Cert.Sage.layer2 (V c main_v25) (V c main_v38) (V c main_arg6) (V c main_arg7) (fun q => (V c main_v39 : S1x128.Idx → EReal) (ix2 (0 : Fin 1) q))

/-- What point `t` writes back is block `t` of the layer. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz1]
  simp only [View.ld_unit_zero (S := S2000x150) hz1, View.ld_unit_zero (S := S150x128) hz1, View.ld_unit_zero (S := S1x128) hz1]
  obtain ⟨-, -, -, -, -, -, -, -, -, -, e50, e51⟩ := idx_facts1 t
  funext j
  rw [View.read_apply]
  refine cell1_eq (V c main_v25) (V c main_v38) (V c main_arg6) (V c main_arg7) (V c main_v39)
    (iblk1 V c 0 t) (iblk1 V c 1 t) (iblk1 V c 2 t) (iblk1 V c 3 t) (iblk1 V c 4 t) (t.val * 2000) j
    (((cfg1.win 5).blk t).view.emb j) ?_ ?_ (iblk1_0_rows V c t) (iblk1_1_rows V c t) (iblk1_2_whole V c t) (iblk1_3_whole V c t) (iblk1_4_whole V c t)
  · show win1_5.index t (0 : Fin 2) * 2000 + 1 * (j 0).val = t.val * 2000 + (j 0).val; rw [e50]; omega
  · show win1_5.index t (1 : Fin 2) * 128 + 1 * (j 1).val = (j 1).val; rw [e51]; omega

/-- An index of the output array is in point `t`'s block iff each coordinate is in the block's range on its axis. -/
theorem mem_blk1 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v40).slice (win1_5.rect t)).set ↔ _
  rw [View.set_slice_whole, Rect.mem_set_unit]
  exact Iff.rfl

/-- Row `r` is in the block of point `r / 2000`: the 50 row blocks tile the array. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  have ht : (i 0).val / 2000 < cfg1.N := by rw [hN]; omega
  obtain ⟨-, -, -, -, -, -, -, -, -, -, e50, e51⟩ := idx_facts1 ⟨(i 0).val / 2000, ht⟩
  refine ⟨⟨(i 0).val / 2000, ht⟩, flush1_5 _, ?_⟩
  rw [mem_blk1]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val ∧ (i 1).val < win1_5.index ⟨(i 0).val / 2000, ht⟩ (1 : Fin 2) * 128 + 128
    rw [e51]; omega

/-- The region's output array ends holding the layer of the arrays as the region finds them. -/
theorem final1 (c : Dev nD) : (dat1 V c).arrAt 5 cfg1.N = G1 V c :=
  (dat1 V c).arrAt_eq_of_cover 5 (G1 V c) (fun t _ => flushed1_eq V c t) (cover1)

end Cert.KernelIdeal.Sage

end
-- ==== Proof.KernelRun.lean ====
/-
  The idealized kernel's run with its result named.

  The program is four stretches of host operations around two launched regions. Following the buffer contents from the launch
  through every stretch and region gives each core's contents at the return (`W6`); the generated frame keeps of that
  only that the nine argument arrays are as launched. Here the same run is re-posted with one more fact read off the same
  final contents: the result array holds `W6` at the second region's output array. Nothing is computed yet: what `W6`
  holds there is read in the modules that follow.
-/
import proofs.«101124_j23630910063248_1_alg».proof.Proof.Gen.KernelIdeal.Frame

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array then holds the final contents
    `W6` at the second region's output, and the arguments are as launched. -/
theorem run_out : θ_run defs (onTc (τ := τ) (main (F := F))) ⟨m, fun _ => 0, ρ⟩ (fun r => ∀ c : Dev nD,
      r.2.mem ((c.tc : Thread nD τ).loc main_v40) = W6 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v40 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.Sage

end
-- ==== Proof.HostFns.lean ====
/-
  The host side of the graph layers, as functions of their operands.

  Every node's in-degree is counted by adding a one per edge into the node the edge points to; its reciprocal (taken of the
  degree clamped below at one, and replaced by zero where the degree is not positive) scales the node's neighbourhood sum
  into a mean. The neighbourhood sum gathers the feature row of each edge's source node — a negative source index first
  wrapped by adding the node count — and adds it into the row of the edge's target node. The same chain is applied twice, to
  the 128-wide input features and to the 150-wide hidden features; it is named here once per width and never opened.
-/
import proofs.«101124_j23630910063248_1_alg».proof.Proof.Gen.KernelIdeal
import Idealize.ShloMosaic.PureOps.Ideal

noncomputable section
namespace Cert.KernelIdeal.Sage
open Cert.KernelIdeal Cert.KernelIdeal.Facts₀ Idealize.ShloMosaic

/-- Each node's in-degree: a one per edge, added into the edge's target node. -/
def inDeg (x2 : (⟨S1600000, .i32⟩ : BufTy).Contents (Elt Ideal)) : (⟨S100000, .f32⟩ : BufTy).Contents (Elt Ideal) :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 x2)
    (broadcastInDim S1600000 ![] bcast_S_S1600000 (constant (F := Ideal) S_ .f32 0x3F800000#32))

/-- The reciprocal in-degree, zero at a node no edge points to. -/
def degInv (x2 : (⟨S1600000, .i32⟩ : BufTy).Contents (Elt Ideal)) : (⟨S100000, .f32⟩ : BufTy).Contents (Elt Ideal) :=
  select (cmpf (F := Ideal) .ogt (inDeg x2) (broadcastInDim S100000 ![] bcast_S_S100000 (constant (F := Ideal) S_ .f32 0x00000000#32)))
    (Host.divf (F := Ideal) (broadcastInDim S100000 ![] bcast_S_S100000 (constant (F := Ideal) S_ .f32 0x3F800000#32))
      (maximumf (F := Ideal) (inDeg x2) (broadcastInDim S100000 ![] bcast_S_S100000 (constant (F := Ideal) S_ .f32 0x3F800000#32))))
    (broadcastInDim S100000 ![] bcast_S_S100000 (id (constant (F := Ideal) S_ .f32 0x00000000#32)))

/-- The edges' source nodes as gather indices: a negative index wrapped by the node count, one index per row. -/
def srcIdx (x1 : (⟨S1600000, .i32⟩ : BufTy).Contents (Elt Ideal)) : (⟨S1600000x1, .i32⟩ : BufTy).Contents (Elt Ideal) :=
  broadcastInDim S1600000x1 ![0] bcast_S1600000_S1600000x1_0
    (select (cmpi .slt x1 (broadcastInDim S1600000 ![] bcast_S_S1600000 (constantI S_ 32 0#32)))
      (addi x1 (broadcastInDim S1600000 ![] bcast_S_S1600000 (constantI S_ 32 100000#32))) x1)

/-- The neighbourhood sum of 128-wide features scaled row by row by `dinv`. -/
def aggW128 (h : (⟨S100000x128, .f32⟩ : BufTy).Contents (Elt Ideal)) (x1 x2 : (⟨S1600000, .i32⟩ : BufTy).Contents (Elt Ideal))
    (dinv : (⟨S100000, .f32⟩ : BufTy).Contents (Elt Ideal)) : (⟨S100000x128, .f32⟩ : BufTy).Contents (Elt Ideal) :=
  mulf (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 x2)
      (Host.gather gather_S100000x128_S1600000x1_S1600000x128_1_0_n_n_0_1_1128 h (srcIdx x1)))
    (broadcastInDim S100000x128 ![0, 1] bcast_S100000x1_S100000x128_0_1 (broadcastInDim S100000x1 ![0] bcast_S100000_S100000x1_0 dinv))

/-- The neighbourhood sum of 150-wide features scaled row by row by `dinv`. -/
def aggW150 (h : (⟨S100000x150, .f32⟩ : BufTy).Contents (Elt Ideal)) (x1 x2 : (⟨S1600000, .i32⟩ : BufTy).Contents (Elt Ideal))
    (dinv : (⟨S100000, .f32⟩ : BufTy).Contents (Elt Ideal)) : (⟨S100000x150, .f32⟩ : BufTy).Contents (Elt Ideal) :=
  mulf (F := Ideal)
    (Host.scatterAdd (F := Ideal) scatter_S100000x150_S1600000x1_S1600000x150_1_0_0_1
      (broadcastInDim S100000x150 ![] bcast_S_S100000x150 (constant (F := Ideal) S_ .f32 0x00000000#32))
      (broadcastInDim S1600000x1 ![0] bcast_S1600000_S1600000x1_0 x2)
      (Host.gather gather_S100000x150_S1600000x1_S1600000x150_1_0_n_n_0_1_1150 h (srcIdx x1)))
    (broadcastInDim S100000x150 ![0, 1] bcast_S100000x1_S100000x150_0_1 (broadcastInDim S100000x1 ![0] bcast_S100000_S100000x1_0 dinv))

/-- The neighbourhood mean of 128-wide features. -/
def agg128 (h : (⟨S100000x128, .f32⟩ : BufTy).Contents (Elt Ideal)) (x1 x2 : (⟨S1600000, .i32⟩ : BufTy).Contents (Elt Ideal)) :
    (⟨S100000x128, .f32⟩ : BufTy).Contents (Elt Ideal) := aggW128 h x1 x2 (degInv x2)

/-- The neighbourhood mean of 150-wide features. -/
def agg150 (h : (⟨S100000x150, .f32⟩ : BufTy).Contents (Elt Ideal)) (x1 x2 : (⟨S1600000, .i32⟩ : BufTy).Contents (Elt Ideal)) :
    (⟨S100000x150, .f32⟩ : BufTy).Contents (Elt Ideal) := aggW150 h x1 x2 (degInv x2)

end Cert.KernelIdeal.Sage
end
-- ==== Proof.HostRead.lean ====
/-
  What the host operations leave in the arrays the two regions read.

  The program's host operations come in four stretches: the in-degree and its reciprocal's two branches; the choice between
  them; the first neighbourhood mean and the first bias as a row; and, after the first region, the second neighbourhood mean
  and the second bias as a row. Each stretch is read here from ANY contents `W` of the buffers before it, one result at a
  time, as the stretch's operations applied to `W`'s operands; buffers a stretch does not write keep `W`'s contents.
-/
import proofs.«101124_j23630910063248_1_alg».proof.Proof.Gen.KernelIdeal.Launch
import proofs.«101124_j23630910063248_1_alg».proof.Proof.HostFns
import Idealize.ShloMosaic.Lib.StableHlo.Run

set_option maxRecDepth 16384
noncomputable section
namespace Cert.KernelIdeal.Sage
open Cert.KernelIdeal Cert.KernelIdeal.Gen
open Idealize.ShloMosaic Idealize.ShloMosaic.TcCoe Idealize.SL.Sem Idealize.ShloMosaic.StableHlo

/-! ## The first stretch: the in-degree, and the two branches of its reciprocal -/

theorem hostOps0_v5 (W : Valuation τ sig (Elt Ideal)) : StableHlo.after hostOps0 W (Proc.devRef .tc main_v5)
    = cmpf (F := Ideal) .ogt (inDeg (W (Proc.devRef .tc main_arg2))) (broadcastInDim S100000 ![] bcast_S_S100000 (constant (F := Ideal) S_ .f32 0x00000000#32)) := by
  simp only [hostOps0]
  after_results
  rfl

theorem hostOps0_v9 (W : Valuation τ sig (Elt Ideal)) : StableHlo.after hostOps0 W (Proc.devRef .tc main_v9)
    = Host.divf (F := Ideal) (broadcastInDim S100000 ![] bcast_S_S100000 (constant (F := Ideal) S_ .f32 0x3F800000#32))
        (maximumf (F := Ideal) (inDeg (W (Proc.devRef .tc main_arg2))) (broadcastInDim S100000 ![] bcast_S_S100000 (constant (F := Ideal) S_ .f32 0x3F800000#32))) := by
  simp only [hostOps0]
  after_results
  rfl

theorem hostOps0_cst_4 (W : Valuation τ sig (Elt Ideal)) : StableHlo.after hostOps0 W (Proc.devRef .tc main_cst_4)
    = constant (F := Ideal) S_ .f32 0x00000000#32 := by
  simp only [hostOps0]
  after_results

theorem hostOps0_arg0 (W : Valuation τ sig (Elt Ideal)) : StableHlo.after hostOps0 W (Proc.devRef .tc main_arg0) = W (Proc.devRef .tc main_arg0) := by
  simp only [hostOps0]
  after_results
theorem hostOps0_arg1 (W : Valuation τ sig (Elt Ideal)) : StableHlo.after hostOps0 W (Proc.devRef .tc main_arg1) = W (Proc.devRef .tc main_arg1) := by
  simp only [hostOps0]
  after_results
theorem hostOps0_arg2 (W : Valuation τ sig (Elt Ideal)) : StableHlo.after hostOps0 W (Proc.devRef .tc main_arg2) = W (Proc.devRef .tc main_arg2) := by
  simp only [hostOps0]
  after_results
theorem hostOps0_arg3 (W : Valuation τ sig (Elt Ideal)) : StableHlo.after hostOps0 W (Proc.devRef .tc main_arg3) = W (Proc.devRef .tc main_arg3) := by
  simp only [hostOps0]
  after_results
theorem hostOps0_arg4 (W : Valuation τ sig (Elt Ideal)) : StableHlo.after hostOps0 W (Proc.devRef .tc main_arg4) = W (Proc.devRef .tc main_arg4) := by
  simp only [hostOps0]
  after_results
theorem hostOps0_arg5 (W : Valuation τ sig (Elt Ideal)) : StableHlo.after hostOps0 W (Proc.devRef .tc main_arg5) = W (Proc.devRef .tc main_arg5) := by
  simp only [hostOps0]
  after_results
theorem hostOps0_arg6 (W : Valuation τ sig (Elt Ideal)) : StableHlo.after hostOps0 W (Proc.devRef .tc main_arg6) = W (Proc.devRef .tc main_arg6) := by
  simp only [hostOps0]
  after_results
theorem hostOps0_arg7 (W : Valuation τ sig (Elt Ideal)) : StableHlo.after hostOps0 W (Proc.devRef .tc main_arg7) = W (Proc.devRef .tc main_arg7) := by
  simp only [hostOps0]
  after_results
theorem hostOps0_arg8 (W : Valuation τ sig (Elt Ideal)) : StableHlo.after hostOps0 W (Proc.devRef .tc main_arg8) = W (Proc.devRef .tc main_arg8) := by
  simp only [hostOps0]
  after_results

/-! ## The second stretch: the reciprocal where the degree is positive, zero elsewhere -/

theorem hostOps0_1_v10 (W : Valuation τ sig (Elt Ideal)) : StableHlo.after hostOps0_1 W (Proc.devRef .tc main_v10)
    = select (W (Proc.devRef .tc main_v5)) (W (Proc.devRef .tc main_v9)) (broadcastInDim S100000 ![] bcast_S_S100000 (id (W (Proc.devRef .tc main_cst_4)))) := by
  simp only [hostOps0_1]
  after_results
  rfl

theorem hostOps0_1_arg0 (W : Valuation τ sig (Elt Ideal)) : StableHlo.after hostOps0_1 W (Proc.devRef .tc main_arg0) = W (Proc.devRef .tc main_arg0) := by
  simp only [hostOps0_1]
  after_results
theorem hostOps0_1_arg1 (W : Valuation τ sig (Elt Ideal)) : StableHlo.after hostOps0_1 W (Proc.devRef .tc main_arg1) = W (Proc.devRef .tc main_arg1) := by
  simp only [hostOps0_1]
  after_results
theorem hostOps0_1_arg2 (W : Valuation τ sig (Elt Ideal)) : StableHlo.after hostOps0_1 W (Proc.devRef .tc main_arg2) = W (Proc.devRef .tc main_arg2) := by
  simp only [hostOps0_1]
  after_results
theorem hostOps0_1_arg3 (W : Valuation τ sig (Elt Ideal)) : StableHlo.after hostOps0_1 W (Proc.devRef .tc main_arg3) = W (Proc.devRef .tc main_arg3) := by
  simp only [hostOps0_1]
  after_results
theorem hostOps0_1_arg4 (W : Valuation τ sig (Elt Ideal)) : StableHlo.after hostOps0_1 W (Proc.devRef .tc main_arg4) = W (Proc.devRef .tc main_arg4) := by
  simp only [hostOps0_1]
  after_results
theorem hostOps0_1_arg5 (W : Valuation τ sig (Elt Ideal)) : StableHlo.after hostOps0_1 W (Proc.devRef .tc main_arg5) = W (Proc.devRef .tc main_arg5) := by
  simp only [hostOps0_1]
  after_results
theorem hostOps0_1_arg6 (W : Valuation τ sig (Elt Ideal)) : StableHlo.after hostOps0_1 W (Proc.devRef .tc main_arg6) = W (Proc.devRef .tc main_arg6) := by
  simp only [hostOps0_1]
  after_results
theorem hostOps0_1_arg7 (W : Valuation τ sig (Elt Ideal)) : StableHlo.after hostOps0_1 W (Proc.devRef .tc main_arg7) = W (Proc.devRef .tc main_arg7) := by
  simp only [hostOps0_1]
  after_results
theorem hostOps0_1_arg8 (W : Valuation τ sig (Elt Ideal)) : StableHlo.after hostOps0_1 W (Proc.devRef .tc main_arg8) = W (Proc.devRef .tc main_arg8) := by
  simp only [hostOps0_1]
  after_results

/-! ## The third stretch: the first neighbourhood mean, and the first bias as a row -/

set_option maxHeartbeats 4000000 in
theorem hostOps0_2_v23 (W : Valuation τ sig (Elt Ideal)) : StableHlo.after hostOps0_2 W (Proc.devRef .tc main_v23)
    = aggW128 (W (Proc.devRef .tc main_arg0)) (W (Proc.devRef .tc main_arg1)) (W (Proc.devRef .tc main_arg2)) (W (Proc.devRef .tc main_v10)) := by
  simp only [hostOps0_2]
  after_results_simp
  rfl

theorem hostOps0_2_v24 (W : Valuation τ sig (Elt Ideal)) : StableHlo.after hostOps0_2 W (Proc.devRef .tc main_v24)
    = shapeCast S1x150 (W (Proc.devRef .tc main_arg5)) shapeCasts_S150_S1x150 := by
  simp only [hostOps0_2]
  after_results
  rfl

theorem hostOps0_2_v10 (W : Valuation τ sig (Elt Ideal)) : StableHlo.after hostOps0_2 W (Proc.devRef .tc main_v10) = W (Proc.devRef .tc main_v10) := by
  simp only [hostOps0_2]
  after_results

theorem hostOps0_2_arg0 (W : Valuation τ sig (Elt Ideal)) : StableHlo.after hostOps0_2 W (Proc.devRef .tc main_arg0) = W (Proc.devRef .tc main_arg0) := by
  simp only [hostOps0_2]
  after_results
theorem hostOps0_2_arg1 (W : Valuation τ sig (Elt Ideal)) : StableHlo.after hostOps0_2 W (Proc.devRef .tc main_arg1) = W (Proc.devRef .tc main_arg1) := by
  simp only [hostOps0_2]
  after_results
theorem hostOps0_2_arg2 (W : Valuation τ sig (Elt Ideal)) : StableHlo.after hostOps0_2 W (Proc.devRef .tc main_arg2) = W (Proc.devRef .tc main_arg2) := by
  simp only [hostOps0_2]
  after_results
theorem hostOps0_2_arg3 (W : Valuation τ sig (Elt Ideal)) : StableHlo.after hostOps0_2 W (Proc.devRef .tc main_arg3) = W (Proc.devRef .tc main_arg3) := by
  simp only [hostOps0_2]
  after_results
theorem hostOps0_2_arg4 (W : Valuation τ sig (Elt Ideal)) : StableHlo.after hostOps0_2 W (Proc.devRef .tc main_arg4) = W (Proc.devRef .tc main_arg4) := by
  simp only [hostOps0_2]
  after_results
theorem hostOps0_2_arg6 (W : Valuation τ sig (Elt Ideal)) : StableHlo.after hostOps0_2 W (Proc.devRef .tc main_arg6) = W (Proc.devRef .tc main_arg6) := by
  simp only [hostOps0_2]
  after_results
theorem hostOps0_2_arg7 (W : Valuation τ sig (Elt Ideal)) : StableHlo.after hostOps0_2 W (Proc.devRef .tc main_arg7) = W (Proc.devRef .tc main_arg7) := by
  simp only [hostOps0_2]
  after_results
theorem hostOps0_2_arg8 (W : Valuation τ sig (Elt Ideal)) : StableHlo.after hostOps0_2 W (Proc.devRef .tc main_arg8) = W (Proc.devRef .tc main_arg8) := by
  simp only [hostOps0_2]
  after_results

/-! ## The fourth stretch, after the first region: the second neighbourhood mean, and the second bias as a row -/

set_option maxHeartbeats 4000000 in
theorem hostOps1_v38 (W : Valuation τ sig (Elt Ideal)) : StableHlo.after hostOps1 W (Proc.devRef .tc main_v38)
    = aggW150 (W (Proc.devRef .tc main_v25)) (W (Proc.devRef .tc main_arg1)) (W (Proc.devRef .tc main_arg2)) (W (Proc.devRef .tc main_v10)) := by
  simp only [hostOps1]
  after_results_simp
  rfl

theorem hostOps1_v39 (W : Valuation τ sig (Elt Ideal)) : StableHlo.after hostOps1 W (Proc.devRef .tc main_v39)
    = shapeCast S1x128 (W (Proc.devRef .tc main_arg8)) shapeCasts_S128_S1x128 := by
  simp only [hostOps1]
  after_results
  rfl

theorem hostOps1_v25 (W : Valuation τ sig (Elt Ideal)) : StableHlo.after hostOps1 W (Proc.devRef .tc main_v25) = W (Proc.devRef .tc main_v25) := by
  simp only [hostOps1]
  after_results

theorem hostOps1_arg6 (W : Valuation τ sig (Elt Ideal)) : StableHlo.after hostOps1 W (Proc.devRef .tc main_arg6) = W (Proc.devRef .tc main_arg6) := by
  simp only [hostOps1]
  after_results
theorem hostOps1_arg7 (W : Valuation τ sig (Elt Ideal)) : StableHlo.after hostOps1 W (Proc.devRef .tc main_arg7) = W (Proc.devRef .tc main_arg7) := by
  simp only [hostOps1]
  after_results

end Cert.KernelIdeal.Sage
end
-- ==== Proof.KernelValue.lean ====
/-
  The idealized kernel's result as one function of its nine arguments.

  Following the buffer contents through the program: the first region is entered with the input features, their
  neighbourhood means, the first pair of weight matrices and the first bias as a row, and leaves the first layer of those in
  its output array — the hidden features. The host operations after it form the hidden features' neighbourhood means; the
  second region is entered with the hidden features, those means, the second pair of weight matrices and the second bias as
  a row, and leaves the second layer of those in the result array. A bias vector cast to one row reads, at column `q` of that
  row, its entry `q`.
-/
import proofs.«101124_j23630910063248_1_alg».proof.Proof.Region0
import proofs.«101124_j23630910063248_1_alg».proof.Proof.Region1
import proofs.«101124_j23630910063248_1_alg».proof.Proof.KernelRun
import proofs.«101124_j23630910063248_1_alg».proof.Proof.HostRead
import Idealize.ShloMosaic.Lib.ValueLayout

set_option maxRecDepth 16384
noncomputable section
namespace Cert.KernelIdeal.Sage
open Cert.KernelIdeal Cert.KernelIdeal.Gen
open Idealize.ShloMosaic Idealize.ShloMosaic.TcCoe Idealize.SL.Sem Idealize.ShloMosaic.StableHlo Idealize.ShloMosaic.ValueIdx

/-- The hidden features: the first layer of the input features and their neighbourhood means. -/
def hidden (x0 : (⟨S100000x128, .f32⟩ : BufTy).Contents (Elt Ideal)) (x1 x2 : (⟨S1600000, .i32⟩ : BufTy).Contents (Elt Ideal))
    (x3 x4 : (⟨S128x150, .f32⟩ : BufTy).Contents (Elt Ideal)) (x5 : (⟨S150, .f32⟩ : BufTy).Contents (Elt Ideal)) :
    (⟨S100000x150, .f32⟩ : BufTy).Contents (Elt Ideal) :=
  Cert.Sage.layer1 x0 (agg128 x0 x1 x2) x3 x4 (fun q => x5 (ix1 q))

/-- The network: the second layer of the hidden features and their neighbourhood means. -/
def net (x0 : (⟨S100000x128, .f32⟩ : BufTy).Contents (Elt Ideal)) (x1 x2 : (⟨S1600000, .i32⟩ : BufTy).Contents (Elt Ideal))
    (x3 x4 : (⟨S128x150, .f32⟩ : BufTy).Contents (Elt Ideal)) (x5 : (⟨S150, .f32⟩ : BufTy).Contents (Elt Ideal))
    (x6 x7 : (⟨S150x128, .f32⟩ : BufTy).Contents (Elt Ideal)) (x8 : (⟨S128, .f32⟩ : BufTy).Contents (Elt Ideal)) :
    (⟨S100000x128, .f32⟩ : BufTy).Contents (Elt Ideal) :=
  Cert.Sage.layer2 (hidden x0 x1 x2 x3 x4 x5) (agg150 (hidden x0 x1 x2 x3 x4 x5) x1 x2) x6 x7 (fun q => x8 (ix1 q))

variable (m : (ℓ : Loc nD τ sig) → Buf (Elt Ideal) ℓ) (ρ : Dev nD → PrngReg)

/-! ## The contents after the first two stretches -/

theorem W2_arg0 (c : Dev nD) : W2 m ρ c (Proc.devRef .tc main_arg0) = m ((c : Thread nD τ).loc main_arg0) :=
  (hostOps0_1_arg0 (W1 m ρ c)).trans (hostOps0_arg0 (W0 m ρ c))
theorem W2_arg1 (c : Dev nD) : W2 m ρ c (Proc.devRef .tc main_arg1) = m ((c : Thread nD τ).loc main_arg1) :=
  (hostOps0_1_arg1 (W1 m ρ c)).trans (hostOps0_arg1 (W0 m ρ c))
theorem W2_arg2 (c : Dev nD) : W2 m ρ c (Proc.devRef .tc main_arg2) = m ((c : Thread nD τ).loc main_arg2) :=
  (hostOps0_1_arg2 (W1 m ρ c)).trans (hostOps0_arg2 (W0 m ρ c))
theorem W2_arg3 (c : Dev nD) : W2 m ρ c (Proc.devRef .tc main_arg3) = m ((c : Thread nD τ).loc main_arg3) :=
  (hostOps0_1_arg3 (W1 m ρ c)).trans (hostOps0_arg3 (W0 m ρ c))
theorem W2_arg4 (c : Dev nD) : W2 m ρ c (Proc.devRef .tc main_arg4) = m ((c : Thread nD τ).loc main_arg4) :=
  (hostOps0_1_arg4 (W1 m ρ c)).trans (hostOps0_arg4 (W0 m ρ c))
theorem W2_arg5 (c : Dev nD) : W2 m ρ c (Proc.devRef .tc main_arg5) = m ((c : Thread nD τ).loc main_arg5) :=
  (hostOps0_1_arg5 (W1 m ρ c)).trans (hostOps0_arg5 (W0 m ρ c))
theorem W2_arg6 (c : Dev nD) : W2 m ρ c (Proc.devRef .tc main_arg6) = m ((c : Thread nD τ).loc main_arg6) :=
  (hostOps0_1_arg6 (W1 m ρ c)).trans (hostOps0_arg6 (W0 m ρ c))
theorem W2_arg7 (c : Dev nD) : W2 m ρ c (Proc.devRef .tc main_arg7) = m ((c : Thread nD τ).loc main_arg7) :=
  (hostOps0_1_arg7 (W1 m ρ c)).trans (hostOps0_arg7 (W0 m ρ c))
theorem W2_arg8 (c : Dev nD) : W2 m ρ c (Proc.devRef .tc main_arg8) = m ((c : Thread nD τ).loc main_arg8) :=
  (hostOps0_1_arg8 (W1 m ρ c)).trans (hostOps0_arg8 (W0 m ρ c))

theorem W2_v10 (c : Dev nD) : W2 m ρ c (Proc.devRef .tc main_v10) = degInv (m ((c : Thread nD τ).loc main_arg2)) := by
  refine (hostOps0_1_v10 (W1 m ρ c)).trans ?_
  show select (StableHlo.after hostOps0 (W0 m ρ c) (Proc.devRef .tc main_v5)) (StableHlo.after hostOps0 (W0 m ρ c) (Proc.devRef .tc main_v9))
    (broadcastInDim S100000 ![] bcast_S_S100000 (id (StableHlo.after hostOps0 (W0 m ρ c) (Proc.devRef .tc main_cst_4)))) = _
  rw [hostOps0_v5, hostOps0_v9, hostOps0_cst_4]
  rfl

/-! ## The first region's entry contents -/

theorem W3_arg0 (c : Dev nD) : W3 m ρ c (Proc.devRef .tc main_arg0) = m ((c : Thread nD τ).loc main_arg0) :=
  (hostOps0_2_arg0 (W2 m ρ c)).trans (W2_arg0 m ρ c)
theorem W3_arg1 (c : Dev nD) : W3 m ρ c (Proc.devRef .tc main_arg1) = m ((c : Thread nD τ).loc main_arg1) :=
  (hostOps0_2_arg1 (W2 m ρ c)).trans (W2_arg1 m ρ c)
theorem W3_arg2 (c : Dev nD) : W3 m ρ c (Proc.devRef .tc main_arg2) = m ((c : Thread nD τ).loc main_arg2) :=
  (hostOps0_2_arg2 (W2 m ρ c)).trans (W2_arg2 m ρ c)
theorem W3_arg3 (c : Dev nD) : W3 m ρ c (Proc.devRef .tc main_arg3) = m ((c : Thread nD τ).loc main_arg3) :=
  (hostOps0_2_arg3 (W2 m ρ c)).trans (W2_arg3 m ρ c)
theorem W3_arg4 (c : Dev nD) : W3 m ρ c (Proc.devRef .tc main_arg4) = m ((c : Thread nD τ).loc main_arg4) :=
  (hostOps0_2_arg4 (W2 m ρ c)).trans (W2_arg4 m ρ c)
theorem W3_arg6 (c : Dev nD) : W3 m ρ c (Proc.devRef .tc main_arg6) = m ((c : Thread nD τ).loc main_arg6) :=
  (hostOps0_2_arg6 (W2 m ρ c)).trans (W2_arg6 m ρ c)
theorem W3_arg7 (c : Dev nD) : W3 m ρ c (Proc.devRef .tc main_arg7) = m ((c : Thread nD τ).loc main_arg7) :=
  (hostOps0_2_arg7 (W2 m ρ c)).trans (W2_arg7 m ρ c)
theorem W3_arg8 (c : Dev nD) : W3 m ρ c (Proc.devRef .tc main_arg8) = m ((c : Thread nD τ).loc main_arg8) :=
  (hostOps0_2_arg8 (W2 m ρ c)).trans (W2_arg8 m ρ c)

theorem W3_v10 (c : Dev nD) : W3 m ρ c (Proc.devRef .tc main_v10) = degInv (m ((c : Thread nD τ).loc main_arg2)) :=
  (hostOps0_2_v10 (W2 m ρ c)).trans (W2_v10 m ρ c)

theorem W3_v23 (c : Dev nD) : W3 m ρ c (Proc.devRef .tc main_v23)
    = agg128 (m ((c : Thread nD τ).loc main_arg0)) (m ((c : Thread nD τ).loc main_arg1)) (m ((c : Thread nD τ).loc main_arg2)) := by
  refine (hostOps0_2_v23 (W2 m ρ c)).trans ?_
  rw [W2_arg0, W2_arg1, W2_arg2, W2_v10]
  rfl

theorem W3_v24 (c : Dev nD) : W3 m ρ c (Proc.devRef .tc main_v24)
    = shapeCast S1x150 (m ((c : Thread nD τ).loc main_arg5)) shapeCasts_S150_S1x150 := by
  refine (hostOps0_2_v24 (W2 m ρ c)).trans ?_
  rw [W2_arg5]

/-! ## The first region's exit contents -/

theorem W4_arg1 (c : Dev nD) : W4 m ρ c (Proc.devRef .tc main_arg1) = m ((c : Thread nD τ).loc main_arg1) :=
  (W4_of_ne m ρ c main_arg1 (by decide)).trans (W3_arg1 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W4_arg8 (c : Dev nD) : W4 m ρ c (Proc.devRef .tc main_arg8) = m ((c : Thread nD τ).loc main_arg8) :=
  (W4_of_ne m ρ c main_arg8 (by decide)).trans (W3_arg8 m ρ c)

theorem W4_v10 (c : Dev nD) : W4 m ρ c (Proc.devRef .tc main_v10) = degInv (m ((c : Thread nD τ).loc main_arg2)) :=
  (W4_of_ne m ρ c main_v10 (by decide)).trans (W3_v10 m ρ c)

/-- The first region leaves the hidden features in its output array. -/
theorem W4_v25 (c : Dev nD) : W4 m ρ c (Proc.devRef .tc main_v25)
    = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((W4_arr m ρ c 5).trans (final0 (V3 m ρ) c)).trans ?_
  show Cert.Sage.layer1 (W3 m ρ c (Proc.devRef .tc main_arg0)) (W3 m ρ c (Proc.devRef .tc main_v23)) (W3 m ρ c (Proc.devRef .tc main_arg3))
    (W3 m ρ c (Proc.devRef .tc main_arg4)) (fun q => (W3 m ρ c (Proc.devRef .tc main_v24) : S1x150.Idx → EReal) (ix2 (0 : Fin 1) q)) = _
  rw [W3_arg0, W3_v23, W3_arg3, W3_arg4, W3_v24]
  unfold hidden
  refine congrArg (Cert.Sage.layer1 _ _ _ _) (funext fun q => ?_)
  exact shapeCast_a_1a_apply _ _ 0 q

/-! ## The second region's entry contents -/

theorem W5_v25 (c : Dev nD) : W5 m ρ c (Proc.devRef .tc main_v25)
    = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (hostOps1_v25 (W4 m ρ c)).trans (W4_v25 m ρ c)

theorem W5_v38 (c : Dev nD) : W5 m ρ c (Proc.devRef .tc main_v38)
    = agg150 (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) := by
  refine (hostOps1_v38 (W4 m ρ c)).trans ?_
  rw [W4_v25, W4_arg1, W4_arg2, W4_v10]
  rfl

theorem W5_arg6 (c : Dev nD) : W5 m ρ c (Proc.devRef .tc main_arg6) = m ((c : Thread nD τ).loc main_arg6) :=
  (hostOps1_arg6 (W4 m ρ c)).trans (W4_arg6 m ρ c)
theorem W5_arg7 (c : Dev nD) : W5 m ρ c (Proc.devRef .tc main_arg7) = m ((c : Thread nD τ).loc main_arg7) :=
  (hostOps1_arg7 (W4 m ρ c)).trans (W4_arg7 m ρ c)

theorem W5_v39 (c : Dev nD) : W5 m ρ c (Proc.devRef .tc main_v39)
    = shapeCast S1x128 (m ((c : Thread nD τ).loc main_arg8)) shapeCasts_S128_S1x128 := by
  refine (hostOps1_v39 (W4 m ρ c)).trans ?_
  rw [W4_arg8]

/-! ## The result -/

/-- The second region leaves the network's value in the result array. -/
theorem out_eq (c : Dev nD) : W6 m ρ c (Proc.devRef .tc main_v40)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W6_arr m ρ c 5).trans (final1 (V5 m ρ) c)).trans ?_
  show Cert.Sage.layer2 (W5 m ρ c (Proc.devRef .tc main_v25)) (W5 m ρ c (Proc.devRef .tc main_v38)) (W5 m ρ c (Proc.devRef .tc main_arg6))
    (W5 m ρ c (Proc.devRef .tc main_arg7)) (fun q => (W5 m ρ c (Proc.devRef .tc main_v39) : S1x128.Idx → EReal) (ix2 (0 : Fin 1) q)) = _
  rw [W5_v25, W5_v38, W5_arg6, W5_arg7, W5_v39]
  unfold net
  refine congrArg (Cert.Sage.layer2 _ _ _ _) (funext fun q => ?_)
  exact shapeCast_a_1a_apply _ _ 0 q

/-- The run, read: every weakly fair execution terminates without a fault, the result array holds the network's value of the
    arguments, and the arguments are as launched. -/
theorem run : θ_run defs (onTc (τ := τ) (main (F := Ideal))) ⟨m, fun _ => 0, ρ⟩ (fun r => ∀ c : Dev nD,
      r.2.mem ((c.tc : Thread nD τ).loc main_v40) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (out_eq m ρ c), (h c).2⟩) (run_out m ρ)

end Cert.KernelIdeal.Sage
end
-- ==== Proof.RefValue.lean ====
/-
  The reference's two layers, entry by entry.

  Read one operation at a time, the reference's hidden features are, at node `p` and feature `q`, the sum over `k` of the input
  features against the first weight matrix, plus the same sum of the neighbourhood means against the second, plus the bias,
  clamped below at zero; and its result is the same expression of the hidden features, their neighbourhood means, the second
  pair of weight matrices and the second bias, not clamped. The host's general dot is the plain sum over the contracted axis
  on the extended reals, and a bias vector broadcast first to one row and then down the rows reads its entry `q`.
-/
import proofs.«101124_j23630910063248_1_alg».proof.Proof.RefRead
import proofs.«101124_j23630910063248_1_alg».proof.Proof.Spec

open scoped BigOperators
noncomputable section
namespace Cert.ReferenceIdeal.Sage
open Cert.ReferenceIdeal Cert.ReferenceIdeal.Read Idealize.ShloMosaic Idealize.ShloMosaic.ValueIdx

/-- The reference's hidden features are the first layer of the input features and their neighbourhood means. -/
theorem hidden_eq (x0 : (⟨S100000x128, .f32⟩ : BufTy).Contents (Elt Ideal)) (x1 x2 : (⟨S1600000, .i32⟩ : BufTy).Contents (Elt Ideal))
    (x3 x4 : (⟨S128x150, .f32⟩ : BufTy).Contents (Elt Ideal)) (x5 : (⟨S150, .f32⟩ : BufTy).Contents (Elt Ideal)) :
    val_main_v30 (F := Ideal) x0 x1 x2 x3 x4 x5
      = Cert.Sage.layer1 x0 (val_main_v23 (F := Ideal) x0 x1 x2) x3 x4 (fun q => x5 (ix1 q)) := by
  funext i
  obtain ⟨a, b, rfl⟩ : ∃ (a : Fin 100000) (b : Fin 150), i = ix2 a b := ⟨i 0, i 1, eq_ix2 i⟩
  have l24 : ∀ k : Fin 128, lidx_main_v24 (ix2 a b) k = ix2 a k := fun k => funext fun d => Fin.ext (by match d with | ⟨0, _⟩ => rfl | ⟨1, _⟩ => rfl)
  have r24 : ∀ k : Fin 128, ridx_main_v24 (ix2 a b) k = ix2 k b := fun k => funext fun d => Fin.ext (by match d with | ⟨0, _⟩ => rfl | ⟨1, _⟩ => rfl)
  have l25 : ∀ k : Fin 128, lidx_main_v25 (ix2 a b) k = ix2 a k := fun k => funext fun d => Fin.ext (by match d with | ⟨0, _⟩ => rfl | ⟨1, _⟩ => rfl)
  have r25 : ∀ k : Fin 128, ridx_main_v25 (ix2 a b) k = ix2 k b := fun k => funext fun d => Fin.ext (by match d with | ⟨0, _⟩ => rfl | ⟨1, _⟩ => rfl)
  have eb : idx_main_v27 (idx_main_v28 (ix2 a b)) = ix1 b := funext fun d => Fin.ext (by match d with | ⟨0, _⟩ => rfl)
  rw [val_main_v30_apply, val_main_v29_apply, val_main_v26_apply, val_main_v24_apply, val_main_v25_apply, val_main_v28_apply,
    val_main_v27_apply, val_main_call1_v0_apply, val_main_call1_cst_apply]
  simp only [l24, r24, l25, r25, eb]
  rfl

/-- The reference's result is the second layer of the hidden features and their neighbourhood means. -/
theorem result_eq (x0 : (⟨S100000x128, .f32⟩ : BufTy).Contents (Elt Ideal)) (x1 x2 : (⟨S1600000, .i32⟩ : BufTy).Contents (Elt Ideal))
    (x3 x4 : (⟨S128x150, .f32⟩ : BufTy).Contents (Elt Ideal)) (x5 : (⟨S150, .f32⟩ : BufTy).Contents (Elt Ideal))
    (x6 x7 : (⟨S150x128, .f32⟩ : BufTy).Contents (Elt Ideal)) (x8 : (⟨S128, .f32⟩ : BufTy).Contents (Elt Ideal)) :
    val_main_v49 (F := Ideal) x0 x1 x2 x3 x4 x5 x6 x7 x8
      = Cert.Sage.layer2 (val_main_v30 (F := Ideal) x0 x1 x2 x3 x4 x5) (val_main_v43 (F := Ideal) x0 x1 x2 x3 x4 x5) x6 x7 (fun q => x8 (ix1 q)) := by
  funext i
  obtain ⟨a, b, rfl⟩ : ∃ (a : Fin 100000) (b : Fin 128), i = ix2 a b := ⟨i 0, i 1, eq_ix2 i⟩
  have l44 : ∀ k : Fin 150, lidx_main_v44 (ix2 a b) k = ix2 a k := fun k => funext fun d => Fin.ext (by match d with | ⟨0, _⟩ => rfl | ⟨1, _⟩ => rfl)
  have r44 : ∀ k : Fin 150, ridx_main_v44 (ix2 a b) k = ix2 k b := fun k => funext fun d => Fin.ext (by match d with | ⟨0, _⟩ => rfl | ⟨1, _⟩ => rfl)
  have l45 : ∀ k : Fin 150, lidx_main_v45 (ix2 a b) k = ix2 a k := fun k => funext fun d => Fin.ext (by match d with | ⟨0, _⟩ => rfl | ⟨1, _⟩ => rfl)
  have r45 : ∀ k : Fin 150, ridx_main_v45 (ix2 a b) k = ix2 k b := fun k => funext fun d => Fin.ext (by match d with | ⟨0, _⟩ => rfl | ⟨1, _⟩ => rfl)
  have eb : idx_main_v47 (idx_main_v48 (ix2 a b)) = ix1 b := funext fun d => Fin.ext (by match d with | ⟨0, _⟩ => rfl)
  rw [val_main_v49_apply, val_main_v46_apply, val_main_v44_apply, val_main_v45_apply, val_main_v48_apply, val_main_v47_apply]
  simp only [l44, r44, l45, r45, eb]
  rfl

end Cert.ReferenceIdeal.Sage
end
-- ==== Proof.Bridge.lean ====
/-
  The reference computes the network.

  The reference's neighbourhood means are the same chain of host operations as the kernel program's, applied to the same
  operands: the input features for the first, the reference's own hidden features for the second. With its two layers read
  entry by entry, its result is the network's value of the nine arguments.
-/
import proofs.«101124_j23630910063248_1_alg».proof.Proof.RefValue
import proofs.«101124_j23630910063248_1_alg».proof.Proof.KernelValue

noncomputable section
namespace Cert.ReferenceIdeal.Sage
open Cert.ReferenceIdeal Cert.ReferenceIdeal.Read Idealize.ShloMosaic Idealize.ShloMosaic.ValueIdx

/-- The reference's first neighbourhood mean is the kernel program's, of the same operands. -/
theorem mean128_eq (x0 : (⟨S100000x128, .f32⟩ : BufTy).Contents (Elt Ideal)) (x1 x2 : (⟨S1600000, .i32⟩ : BufTy).Contents (Elt Ideal)) :
    val_main_v23 (F := Ideal) x0 x1 x2 = Cert.KernelIdeal.Sage.agg128 x0 x1 x2 := rfl

/-- The reference's second neighbourhood mean is the kernel program's, of the reference's hidden features. -/
theorem mean150_eq (x0 : (⟨S100000x128, .f32⟩ : BufTy).Contents (Elt Ideal)) (x1 x2 : (⟨S1600000, .i32⟩ : BufTy).Contents (Elt Ideal)) (x3 x4 : (⟨S128x150, .f32⟩ : BufTy).Contents (Elt Ideal)) (x5 : (⟨S150, .f32⟩ : BufTy).Contents (Elt Ideal)) :
    val_main_v43 (F := Ideal) x0 x1 x2 x3 x4 x5
      = Cert.KernelIdeal.Sage.agg150 (val_main_v30 (F := Ideal) x0 x1 x2 x3 x4 x5) x1 x2 := rfl

/-- The reference's result is the network's value. -/
theorem net_eq (x0 : (⟨S100000x128, .f32⟩ : BufTy).Contents (Elt Ideal)) (x1 x2 : (⟨S1600000, .i32⟩ : BufTy).Contents (Elt Ideal)) (x3 x4 : (⟨S128x150, .f32⟩ : BufTy).Contents (Elt Ideal)) (x5 : (⟨S150, .f32⟩ : BufTy).Contents (Elt Ideal)) (x6 x7 : (⟨S150x128, .f32⟩ : BufTy).Contents (Elt Ideal)) (x8 : (⟨S128, .f32⟩ : BufTy).Contents (Elt Ideal)) :
    val_main_v49 (F := Ideal) x0 x1 x2 x3 x4 x5 x6 x7 x8 = Cert.KernelIdeal.Sage.net x0 x1 x2 x3 x4 x5 x6 x7 x8 := by
  rw [result_eq, mean150_eq, hidden_eq, mean128_eq]
  rfl

end Cert.ReferenceIdeal.Sage
end
-- ==== Proof.lean ====
/-
  A two-layer graph network over 100000 nodes and 1600000 edges: the kernel program against its plain reference, on the
  extended reals.

  Both programs count every node's in-degree, take its reciprocal (zero where no edge arrives), average each node's incoming
  neighbours' features, and apply a dense layer `h·Wₛ + mean(h)·Wₙ + b` twice, clamping the first below at zero. They share
  the host operations that form the means, word for word. They differ in the dense layers only: the kernel program launches
  one region per layer, each a grid of 50 row blocks of 2000 nodes that rounds its operands to a half-width format, multiplies
  on the matrix unit into a zero accumulator and adds the bias row; the reference applies two general dots and a broadcast
  bias to whole arrays. On the extended reals a change of float format is the identity and both kinds of product are the
  plain sum over the contracted axis, so each layer is the same function entry by entry, and no law of arithmetic beyond that
  is used: the precondition is never opened.

  The modules: `Spec` states a layer's entry and the two layers; `Payload` reads a block's stored entry; `Region0`,
  `Region1` go from the blocks to each region's whole output array, for any entry contents; `HostFns`, `HostRead` name
  the host chains and read them off the program; `KernelRun` re-posts the program's run with its result named and
  `KernelValue` reads that result as the network's value of the arguments; `RefValue` reads the reference's layers and
  `Bridge` identifies its result with the same value; `RefRun` and `RefRead` hold the reference's run and its operations read
  one at a time at an index.
-/
import proofs.«101124_j23630910063248_1_alg».proof.Defs
import proofs.«101124_j23630910063248_1_alg».proof.Proof.Gen.Kernel
import proofs.«101124_j23630910063248_1_alg».proof.Proof.Gen.Kernel.Skeleton
import proofs.«101124_j23630910063248_1_alg».proof.Proof.Gen.Kernel.Launch
import proofs.«101124_j23630910063248_1_alg».proof.Proof.Gen.Kernel.Points
import proofs.«101124_j23630910063248_1_alg».proof.Proof.Gen.Kernel.Frame
import proofs.«101124_j23630910063248_1_alg».proof.Proof.Gen.KernelIdeal
import proofs.«101124_j23630910063248_1_alg».proof.Proof.Gen.KernelIdeal.Skeleton
import proofs.«101124_j23630910063248_1_alg».proof.Proof.Gen.KernelIdeal.Launch
import proofs.«101124_j23630910063248_1_alg».proof.Proof.Gen.KernelIdeal.Points
import proofs.«101124_j23630910063248_1_alg».proof.Proof.Gen.KernelIdeal.Frame
import proofs.«101124_j23630910063248_1_alg».proof.Proof.Gen.ReferenceIdeal
import proofs.«101124_j23630910063248_1_alg».proof.Proof.Gen.Pre_finite_inputs
import proofs.«101124_j23630910063248_1_alg».proof.Proof.RefRun
import proofs.«101124_j23630910063248_1_alg».proof.Proof.RefRead
import proofs.«101124_j23630910063248_1_alg».proof.Proof.KernelValue
import proofs.«101124_j23630910063248_1_alg».proof.Proof.Bridge
import Idealize.ShloMosaic.Adequacy
import Idealize.ShloMosaic.Init

noncomputable section

namespace Cert.Proof

open Idealize.ShloMosaic Idealize.SL.Sem

/-- The word-level kernel program runs, and its arguments end as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs, and its arguments end as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network's value of those arguments in their result
    arrays. -/
theorem algebraic : Cert.algebraic_KernelIdeal_ReferenceIdeal := by
  intro m ρ m' ρ' _ hagree
  refine ⟨fun c => Cert.KernelIdeal.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Sage.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v49_eq, e0, e1, e2, e3, e4, e5, e6, e7, e8]
  exact Cert.ReferenceIdeal.Sage.net_eq _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
